-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S4000x128 : Shape := ⟨2, ![4000, 128]⟩
abbrev S4000x1 : Shape := ⟨2, ![4000, 1]⟩
abbrev S700000x128 : Shape := ⟨2, ![700000, 128]⟩
abbrev S1x128 : Shape := ⟨2, ![1, 128]⟩

abbrev nBuf : Space → Nat
  | .hbm => 46
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .bf16⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000x128, .bf16⟩
  | .hbm, ⟨36, _⟩ => ⟨S700000x128, .f32⟩
  | .hbm, ⟨37, _⟩ => ⟨S_, .f32⟩
  | .hbm, ⟨38, _⟩ => ⟨S100000x128, .f32⟩
  | .hbm, ⟨39, _⟩ => ⟨S700000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  dot_S4000x128_S128x128_S4000x128_1_0_0_1_n_n_wf : DotDims.WF S4000x128 S128x128 S4000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S100000x128, .f32⟩
  | .hbm, ⟨12, _⟩ => ⟨S_, .f32⟩
  | .hbm, ⟨13, _⟩ => ⟨S700000, .f32⟩
  | .hbm, ⟨14, _⟩ => ⟨S_, .f32⟩
  | .hbm, ⟨15, _⟩ => ⟨S100000, .f32⟩
  | .hbm, ⟨16, _⟩ => ⟨S700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S700000, .i32⟩
  | .hbm, ⟨28, _⟩ => ⟨S700000, .i1⟩
  | .hbm, ⟨29, _⟩ => ⟨S_, .i32⟩
  | .hbm, ⟨30, _⟩ => ⟨S700000, .i32⟩
  | .hbm, ⟨31, _⟩ => ⟨S700000, .i32⟩
  | .hbm, ⟨32, _⟩ => ⟨S700000, .i32⟩
  | .hbm, ⟨33, _⟩ => ⟨S700000x1, .i32⟩
  | .hbm, ⟨34, _⟩ => ⟨S700000, .f32⟩
  | .hbm, ⟨35, _⟩ => ⟨S_, .i32⟩
  | .hbm, ⟨36, _⟩ => ⟨S700000, .i32⟩
  | .hbm, ⟨37, _⟩ => ⟨S700000, .i1⟩
  | .hbm, ⟨38, _⟩ => ⟨S_, .i32⟩
  | .hbm, ⟨39, _⟩ => ⟨S700000, .i32⟩
  | .hbm, ⟨40, _⟩ => ⟨S700000, .i32⟩
  | .hbm, ⟨41, _⟩ => ⟨S700000, .i32⟩
  | .hbm, ⟨42, _⟩ => ⟨S700000x1, .i32⟩
  | .hbm, ⟨43, _⟩ => ⟨S700000, .f32⟩
  | .hbm, ⟨44, _⟩ => ⟨S700000, .f32⟩
  | .hbm, ⟨45, _⟩ => ⟨S700000x1, .f32⟩
  | .hbm, ⟨46, _⟩ => ⟨S_, .i32⟩
  | .hbm, ⟨47, _⟩ => ⟨S700000, .i32⟩
  | .hbm, ⟨48, _⟩ => ⟨S700000, .i1⟩
  | .hbm, ⟨49, _⟩ => ⟨S_, .i32⟩
  | .hbm, ⟨50, _⟩ => ⟨S700000, .i32⟩
  | .hbm, ⟨51, _⟩ => ⟨S700000, .i32⟩
  | .hbm, ⟨52, _⟩ => ⟨S700000, .i32⟩
  | .hbm, ⟨53, _⟩ => ⟨S700000x1, .i32⟩
  | .hbm, ⟨54, _⟩ => ⟨S700000x128, .f32⟩
  | .hbm, ⟨55, _⟩ => ⟨S700000x128, .f32⟩
  | .hbm, ⟨56, _⟩ => ⟨S700000x128, .f32⟩
  | .hbm, ⟨57, _⟩ => ⟨S_, .f32⟩
  | .hbm, ⟨58, _⟩ => ⟨S100000x128, .f32⟩
  | .hbm, ⟨59, _⟩ => ⟨S700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.BlockValue.lean ====
/-
  The kernel body at one grid point, read at an entry.

  One grid point multiplies its 4000 rows of `x` by the whole 128×128 weight matrix on the matrix unit, into a zero
  accumulator, and scales row `p` of the product by the point's `p`-th entry of the weight column `δ` (a `[4000, 1]`
  block, broadcast over the 128 lanes).  The narrowings to the 16-bit format around the product are the identity on the
  extended reals, so entry `(p, c)` of what the point stores is `(Σ_k x(p, k) · W(k, c)) · δ(p)`.
-/
import proofs.«165905_j74036646248900_2_alg».proof.Proof.Gen.KernelIdeal.Frame
import proofs.«165905_j74036646248900_2_alg».proof.Proof.LibKeepdims
import proofs.«165905_j74036646248900_2_alg».proof.Proof.LibPlainDot
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! The matrix unit's dimension record contracts the left operand's lanes with the right operand's rows. -/

theorem dot_l0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot_l1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem dot_r0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem dot_r1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- Entry `(p, c)` of the value a grid point stores: row `p` of the block of `x` times column `c` of `W`, scaled by
    entry `p` of the block of the weight column. -/
theorem pay_apply (x0 : Vec Ideal S4000x128 .f32) (x1 : Vec Ideal S128x128 .f32) (x2 : Vec Ideal S4000x1 .f32)
    (p : Fin 4000) (c : Fin 128) :
    k0_pay1 (F := Ideal) x0 x1 x2 (ix2 p c)
      = (∑ k : Fin 128, x0 (ix2 p k) * x1 (ix2 k c)) * x2 (ix2 p (0 : Fin 1)) := by
  have e : k0_pay1 (F := Ideal) x0 x1 x2 (ix2 p c)
      = matmul dot_S4000x128_S128x128_S4000x128_1_0_0_1_n_n none (x0 : FVec Ideal S4000x128 .bf16) (x1 : FVec Ideal S128x128 .bf16)
          (constant (F := Ideal) S4000x128 .f32 0x00000000#32) (ix2 p c)
        * broadcastTo S4000x128 (shapeCast S4000x1 x2 shapeCasts_S4000x1_S4000x1) broadcasts_S4000x1_S4000x128 (ix2 p c) := rfl
  rw [e, PlainDot.matmul_zero_apply dot_S4000x128_S128x128_S4000x128_1_0_0_1_n_n none rfl rfl dot_l0 dot_l1 dot_r0 dot_r1 _ _ p c,
    Keepdims.broadcastTo_a1_ab_apply _ _ p c, shapeCast_self]

end Cert.KernelIdeal.Block

end
-- ==== Proof.RowsArray.lean ====
/-
  From the grid points' blocks to the whole array of scaled products.

  Grid point `t` of 25 takes rows `4000·t … 4000·t + 3999` of `x` and of the weight column `δ` and the whole matrix `W`,
  and writes the same rows of the result.  Every row of the 100000 lies in exactly the block of point `row / 4000`, so
  after the last point the result array is, entry by entry, `Y(r, c) = (Σ_k x(r, k) · W(k, c)) · δ(r)` of the arrays the
  region found.
-/
import proofs.«165905_j74036646248900_2_alg».proof.Proof.BlockValue
import Idealize.ShloMosaic.Lib.Pipeline.Value

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem origin_eq : (![0, 0] : Fin 2 → Nat) = fun _ => 0 := funext fun a => by fin_cases a <;> rfl

/-- The scaled product of whole arrays: `Y(r, c) = (Σ_k x(r, k) · W(k, c)) · δ(r)`. -/
def scaledProduct (x : S100000x128.Idx → EReal) (W : S128x128.Idx → EReal) (δ : S100000x1.Idx → EReal) :
    S100000x128.Idx → EReal := fun i =>
  (∑ k : Fin 128, x (ix2 (⟨(i 0).val, idx2_lt0 i⟩ : Fin 100000) k) * W (ix2 k (⟨(i 1).val, idx2_lt1 i⟩ : Fin 128)))
    * δ (ix2 (⟨(i 0).val, idx2_lt0 i⟩ : Fin 100000) (0 : Fin 1))

theorem scaledProduct_apply (x : S100000x128.Idx → EReal) (W : S128x128.Idx → EReal) (δ : S100000x1.Idx → EReal)
    (r : Fin 100000) (c : Fin 128) :
    scaledProduct x W δ (ix2 r c) = (∑ k : Fin 128, x (ix2 r k) * W (ix2 k c)) * δ (ix2 r (0 : Fin 1)) := rfl

/-- The value a point stores, at any index of its block, by the index's coordinates. -/
theorem pay_at (x0 : Vec Ideal S4000x128 .f32) (x1 : Vec Ideal S128x128 .f32) (x2 : Vec Ideal S4000x1 .f32)
    (j : S4000x128.Idx) :
    k0_pay1 (F := Ideal) x0 x1 x2 j
      = (∑ k : Fin 128, x0 (ix2 (⟨(j 0).val, idx2_lt0 j⟩ : Fin 4000) k) * x1 (ix2 k (⟨(j 1).val, idx2_lt1 j⟩ : Fin 128)))
        * x2 (ix2 (⟨(j 0).val, idx2_lt0 j⟩ : Fin 4000) (0 : Fin 1)) := by
  have hj : j = ix2 (⟨(j 0).val, idx2_lt0 j⟩ : Fin 4000) (⟨(j 1).val, idx2_lt1 j⟩ : Fin 128) := by
    funext a; match a with | ⟨0, _⟩ => rfl | ⟨1, _⟩ => rfl
  exact (congrArg (k0_pay1 (F := Ideal) x0 x1 x2) hj).trans (Block.pay_apply x0 x1 x2 _ _)

/-- The printed index maps, decided over the 25 points: the blocks of `x` and of the weight column move with the
    result's block down the rows, the matrix `W` stays, and nothing moves along the lanes. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 24 :=
  (by decide +kernel : ∀ t : Fin grid0.N, _)

/-- Every one of the 25 row blocks is some point's. -/
theorem idx_onto : ∀ q : Fin 25, ∃ t : Fin cfg0.N, win0_3.index t = ![q.val, 0] :=
  (by decide +kernel : ∀ q : Fin 25, ∃ t : Fin grid0.N, win0_3.index t = ![q.val, 0])

/-- The scaled product at an index whose coordinates are known. -/
theorem scaledProduct_at (x : S100000x128.Idx → EReal) (W : S128x128.Idx → EReal) (δ : S100000x1.Idx → EReal)
    (i : S100000x128.Idx) (r : Fin 100000) (c : Fin 128) (h0 : (i 0).val = r.val) (h1 : (i 1).val = c.val) :
    scaledProduct x W δ i = (∑ k : Fin 128, x (ix2 r k) * W (ix2 k c)) * δ (ix2 r (0 : Fin 1)) := by
  have hi : i = ix2 r c := by
    funext a; match a with | ⟨0, _⟩ => exact Fin.ext h0 | ⟨1, _⟩ => exact Fin.ext h1
  rw [hi]; rfl

/-- A block of `x`, of `W`, of the weight column, read at an index: the array the region found, at the block's element. -/
theorem xblock_apply (c : Dev nD) (t : Fin cfg0.N) (y : S4000x128.Idx) :
    iblk m c 0 t y = V m c main_arg0 (((cfg0.win 0).blk t).view.emb y) := by
  unfold iblk
  rw [View.read_apply, cast_eq]
theorem wblock_apply (c : Dev nD) (t : Fin cfg0.N) (y : S128x128.Idx) :
    iblk m c 1 t y = V m c main_arg2 (((cfg0.win 1).blk t).view.emb y) := by
  unfold iblk
  rw [View.read_apply, cast_eq]
theorem dblock_apply (c : Dev nD) (t : Fin cfg0.N) (y : S4000x1.Idx) :
    iblk m c 2 t y = V m c main_v15 (((cfg0.win 2).blk t).view.emb y) := by
  unfold iblk
  rw [View.read_apply, cast_eq]

/-- WHAT POINT `t` WRITES BACK is block `t` of the scaled product of the arrays the region found. -/
theorem flushed_eq (c : Dev nD) (t : Fin cfg0.N) :
    (dats m 0 c).flushed 3 t = ((cfg0.win 3).blk t).view.read (Elt Ideal)
      (scaledProduct (V m c main_arg0) (V m c main_arg2) (V m c main_v15)) := by
  show (cfg0.win 3).cut (grid0.coords t) ((dats m 0 c).after 3 t) = _
  rw [after0_3]
  unfold out0_3
  rw [View.canon_unit_zero origin_eq]
  simp only [View.ld_unit_zero (S := S4000x128) origin_eq, View.ld_unit_zero (S := S128x128) origin_eq,
    View.ld_unit_zero (S := S4000x1) origin_eq]
  obtain ⟨e0, e1, e2, e3, e4, e5, e6, e7⟩ := idx_facts t
  funext j
  refine (pay_at (iblk m c 0 t) (iblk m c 1 t) (iblk m c 2 t) j).trans ?_
  rw [View.read_apply, cast_eq]
  have hj0 : (j 0).val < 4000 := (j 0).isLt
  have hj1 : (j 1).val < 128 := (j 1).isLt
  have hr : win0_3.index t (0 : Fin 2) * 4000 + (j 0).val < 100000 := by omega
  have g0 : ((((cfg0.win 3).blk t).view.emb j) 0).val = win0_3.index t (0 : Fin 2) * 4000 + (j 0).val := by
    show win0_3.index t (0 : Fin 2) * 4000 + 1 * (j 0).val = _; omega
  have g1 : ((((cfg0.win 3).blk t).view.emb j) 1).val = (j 1).val := by
    show win0_3.index t (1 : Fin 2) * 128 + 1 * (j 1).val = _; omega
  rw [scaledProduct_at _ _ _ _ ⟨win0_3.index t (0 : Fin 2) * 4000 + (j 0).val, hr⟩ ⟨(j 1).val, hj1⟩ g0 g1]
  have hx : ∀ k : Fin 128, iblk m c 0 t (ix2 (⟨(j 0).val, hj0⟩ : Fin 4000) k)
      = V m c main_arg0 (ix2 (⟨win0_3.index t (0 : Fin 2) * 4000 + (j 0).val, hr⟩ : Fin 100000) k) := by
    intro k
    rw [xblock_apply]
    refine congrArg (V m c main_arg0) (funext fun a => Fin.ext ?_)
    match a with
    | ⟨0, _⟩ => show win0_0.index t (0 : Fin 2) * 4000 + 1 * (j 0).val = win0_3.index t (0 : Fin 2) * 4000 + (j 0).val; omega
    | ⟨1, _⟩ => show win0_0.index t (1 : Fin 2) * 128 + 1 * k.val = k.val; omega
  have hw : ∀ k : Fin 128, iblk m c 1 t (ix2 k (⟨(j 1).val, hj1⟩ : Fin 128))
      = V m c main_arg2 (ix2 k (⟨(j 1).val, hj1⟩ : Fin 128)) := by
    intro k
    rw [wblock_apply]
    refine congrArg (V m c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  have hd : iblk m c 2 t (ix2 (⟨(j 0).val, hj0⟩ : Fin 4000) (0 : Fin 1))
      = V m c main_v15 (ix2 (⟨win0_3.index t (0 : Fin 2) * 4000 + (j 0).val, hr⟩ : Fin 100000) (0 : Fin 1)) := by
    rw [dblock_apply]
    refine congrArg (V m c main_v15) (funext fun a => Fin.ext ?_)
    match a with
    | ⟨0, _⟩ => show win0_2.index t (0 : Fin 2) * 4000 + 1 * (j 0).val = win0_3.index t (0 : Fin 2) * 4000 + (j 0).val; omega
    | ⟨1, _⟩ => show win0_2.index t (1 : Fin 2) * 1 + 1 * 0 = 0; omega
  rw [hd]
  refine congrArg (· * _) (Finset.sum_congr rfl fun k _ => ?_)
  rw [hx k, hw k]

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v16).slice (win0_3.rect t)).set ↔ _
  rw [View.set_slice_whole, Rect.mem_set_unit]
  exact Iff.rfl

/-- Every entry of the array is in the block of the point that takes its row. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- THE RESULT ARRAY after the last point: the scaled product of the arrays the region found. -/
theorem final (c : Dev nD) : (dats m 0 c).arrAt 3 cfg0.N
    = scaledProduct (V m c main_arg0) (V m c main_arg2) (V m c main_v15) :=
  (dats m 0 c).arrAt_eq_of_cover 3 _ (fun t _ => flushed_eq m c t) covered

end Cert.KernelIdeal.Rows

end
-- ==== Proof.KernelTail.lean ====
/-
  The kernel program's result as one term of its arguments.

  Around the grid the program computes, on the host, the edge lists `src`, `dst` (the given edges followed by one
  self-loop per node) and the node weights `δ = where(deg > 0, deg^(-1/2), 0)` before the grid — by the same operations
  as the reference — and after the grid gathers the rows
  `Y(src e, ·)` of the grid's result, adds them up per destination, scales destination `d`'s sum by `δ(d)` and adds
  the bias.  `tailValue` is that last part as a function of the arguments; `result_eq` reads it off the frame's run.
-/
import proofs.«165905_j74036646248900_2_alg».proof.Proof.RowsArray
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- The source list: the given edges' sources followed by one self-loop per node. -/
def srcList (x1 : S2x600000.Idx → BitVec 32) : S700000.Idx → BitVec 32 :=
  concatenate S700000 0
    [⟨S600000, shapeCast _ (extractStridedSlice S1x600000 ![0, 0] x1 slices_S2x600000_S1x600000_0_0) shapeCasts_S1x600000_S600000⟩,
      ⟨S100000, iotaInDim S100000 32 0⟩] concatenates_S600000_S100000_S700000_d0

/-- The destination list: the given edges' destinations followed by one self-loop per node. -/
def dstList (x1 : S2x600000.Idx → BitVec 32) : S700000.Idx → BitVec 32 :=
  concatenate S700000 0
    [⟨S600000, shapeCast _ (extractStridedSlice S1x600000 ![1, 0] x1 slices_S2x600000_S1x600000_1_0) shapeCasts_S1x600000_S600000⟩,
      ⟨S100000, iotaInDim S100000 32 0⟩] concatenates_S600000_S100000_S700000_d0

section AnyFloats
variable {F : FTy → Type} [FloatOps F]

/-- The degrees of the destinations: one for every message, added up per destination (a message whose destination
    index is no node is dropped). -/
def degree (d : S700000.Idx → BitVec 32) : FVec F S100000 .f32 :=
  Host.scatterAdd (F := F) (φ := .f32) scatter_S100000_S700000x1_S700000_n_0_0_1
    (broadcastInDim S100000 ![] bcast_S_S100000 (constant (F := F) S_ .f32 0x00000000#32))
    (broadcastInDim S700000x1 ![0] bcast_S700000_S700000x1_0 d)
    (broadcastInDim S700000 ![] bcast_S_S700000 (constant (F := F) S_ .f32 0x3F800000#32))

/-- The node weights `where(deg > 0, deg^(-1/2), 0)`. -/
def weightOf (d : S700000.Idx → BitVec 32) : FVec F S100000 .f32 :=
  select (cmpf (F := F) (φ := .f32) .ogt (degree (F := F) d)
      (broadcastInDim S100000 ![] bcast_S_S100000 (constant (F := F) S_ .f32 0x00000000#32)))
    (Host.rsqrt (F := F) (φ := .f32) (degree (F := F) d))
    (broadcastInDim S100000 ![] bcast_S_S100000 (id (constant (F := F) S_ .f32 0x00000000#32)))

/-- The node weights as the column `[100000, 1]` the grid reads. -/
def weightColumn (x1 : S2x600000.Idx → BitVec 32) : FVec F S100000x1 .f32 :=
  shapeCast S100000x1 (weightOf (F := F) (dstList x1)) shapeCasts_S100000_S100000x1

set_option maxRecDepth 16384 in
set_option maxHeartbeats 4000000 in
/-- The weight column the region finds, whatever the float values are: the host operations before the grid, read off
    the program. -/
theorem found_weights (m : (ℓ : Loc nD τ sig) → Buf (Elt F) ℓ) (c : Dev nD) :
    V m c main_v15 = weightColumn (F := F) (m ((c.tc : Thread nD τ).loc main_arg1)) := by
  unfold weightColumn weightOf degree dstList
  dsimp only [V, V0]
  simp only [hostOps0, hostOps0_1, hostOps0_2, List.flatten_cons, List.flatten_nil, List.append_nil, List.cons_append,
    List.nil_append]
  after_results_simp <;> rfl

end AnyFloats

/-- The grid's result: the rows of `x · W`, row `r` scaled by `δ(r)`. -/
def scaledRows (x0 : S100000x128.Idx → EReal) (x1 : S2x600000.Idx → BitVec 32) (x2 : S128x128.Idx → EReal) :
    S100000x128.Idx → EReal :=
  Rows.scaledProduct x0 x2 (weightColumn (F := Ideal) x1)

/-- The index column of a row lookup: a negative index wrapped once by the table's height. -/
def lookupIndex (s : S700000.Idx → BitVec 32) : S700000x1.Idx → BitVec 32 :=
  broadcastInDim S700000x1 ![0] bcast_S700000_S700000x1_0
    (select (cmpi .slt s (broadcastInDim S700000 ![] bcast_S_S700000 (constantI S_ 32 0#32)))
      (addi s (broadcastInDim S700000 ![] bcast_S_S700000 (constantI S_ 32 100000#32))) s)

/-- The program's result: per destination the sum of the gathered scaled rows, scaled by the destination's weight,
    plus the bias — the host operations after the grid, applied to the edge lists, the weight column and the grid's
    result. -/
def tailValue (x0 : S100000x128.Idx → EReal) (x1 : S2x600000.Idx → BitVec 32) (x2 : S128x128.Idx → EReal)
    (x3 : S128.Idx → EReal) : S100000x128.Idx → EReal :=
  addf (F := Ideal) (φ := .f32)
    (mulf (F := Ideal) (φ := .f32) (broadcastInDim S100000x128 ![0, 1] bcast_S100000x1_S100000x128_0_1 (weightColumn (F := Ideal) x1))
      (Host.scatterAdd (F := Ideal) (φ := .f32) scatter_S100000x128_S700000x1_S700000x128_1_0_0_1
        (broadcastInDim S100000x128 ![] bcast_S_S100000x128 (constant (F := Ideal) S_ .f32 0x00000000#32))
        (broadcastInDim S700000x1 ![0] bcast_S700000_S700000x1_0 (dstList x1))
        (extf (F := Ideal) (φ := .bf16) .f32
          (Host.gather gather_S100000x128_S700000x1_S700000x128_1_0_n_n_0_1_1128 (scaledRows x0 x1 x2)
            (lookupIndex (srcList x1)))
          bitsLt_bf16_f32)))
    (broadcastInDim S100000x128 ![0, 1] bcast_S1x128_S100000x128_0_1 (broadcastInDim S1x128 ![1] bcast_S128_S1x128_1 x3))

variable (m : (ℓ : Loc nD τ sig) → Buf (Elt Ideal) ℓ)

/-! ## What the region finds: the host operations before the grid -/

set_option maxRecDepth 16384 in
set_option maxHeartbeats 4000000 in
/-- The source list the region finds. -/
theorem found_src (c : Dev nD) : V m c main_v3 = srcList (m ((c.tc : Thread nD τ).loc main_arg1)) := by
  unfold srcList
  dsimp only [V, V0]
  simp only [hostOps0, hostOps0_1, hostOps0_2, List.flatten_cons, List.flatten_nil, List.append_nil, List.cons_append,
    List.nil_append]
  after_results_simp <;> rfl

set_option maxRecDepth 16384 in
set_option maxHeartbeats 4000000 in
/-- The destination list the region finds. -/
theorem found_dst (c : Dev nD) : V m c main_v6 = dstList (m ((c.tc : Thread nD τ).loc main_arg1)) := by
  unfold dstList
  dsimp only [V, V0]
  simp only [hostOps0, hostOps0_1, hostOps0_2, List.flatten_cons, List.flatten_nil, List.append_nil, List.cons_append,
    List.nil_append]
  after_results_simp <;> rfl

/-! ## The run's result buffer -/

set_option maxHeartbeats 4000000 in
/-- The result buffer after the host operations that follow the grid. -/
theorem result_eq (c : Dev nD) :
    Pipeline.afterTail₀ cfgs (dats (F := Ideal) m) 0 (V0 m) [hostOps1] c main_v32
      = tailValue (m ((c.tc : Thread nD τ).loc main_arg0)) (m ((c.tc : Thread nD τ).loc main_arg1))
          (m ((c.tc : Thread nD τ).loc main_arg2)) (m ((c.tc : Thread nD τ).loc main_arg3)) := by
  have h16 : Pipeline.withArrays (cfgs 0).spec c (V0 m c) (fun w => (dats m 0 c).arrAt w (cfgs 0).N)
      (Proc.tc.devRef main_v16)
      = scaledRows (m ((c.tc : Thread nD τ).loc main_arg0)) (m ((c.tc : Thread nD τ).loc main_arg1))
          (m ((c.tc : Thread nD τ).loc main_arg2)) := by
    refine (Pipeline.withArrays_arr spec0 launch0.win.arr_inj c _ _ 3).trans ((Rows.final m c).trans ?_)
    rw [V_main_arg0, V_main_arg2, found_weights]
    rfl
  have h15 : Pipeline.withArrays (cfgs 0).spec c (V0 m c) (fun w => (dats m 0 c).arrAt w (cfgs 0).N)
      (Proc.tc.devRef main_v15) = weightColumn (F := Ideal) (m ((c.tc : Thread nD τ).loc main_arg1)) :=
    (Pipeline.withArrays_arr spec0 launch0.win.arr_inj c _ _ 2).trans
      (((dats m 0 c).arrAt_in 2 rfl _).trans ((A_eq m c 2).trans (found_weights m c)))
  have h6 : Pipeline.withArrays (cfgs 0).spec c (V0 m c) (fun w => (dats m 0 c).arrAt w (cfgs 0).N)
      (Proc.tc.devRef main_v6) = dstList (m ((c.tc : Thread nD τ).loc main_arg1)) :=
    (Pipeline.withArrays_of_ne _ c (V0 m c) _ main_v6 (by exact (by decide : ∀ w, Pipeline.arrRef spec0 w ≠ main_v6))).trans
      (found_dst m c)
  have h3 : Pipeline.withArrays (cfgs 0).spec c (V0 m c) (fun w => (dats m 0 c).arrAt w (cfgs 0).N)
      (Proc.tc.devRef main_v3) = srcList (m ((c.tc : Thread nD τ).loc main_arg1)) :=
    (Pipeline.withArrays_of_ne _ c (V0 m c) _ main_v3 (by exact (by decide : ∀ w, Pipeline.arrRef spec0 w ≠ main_v3))).trans
      (found_src m c)
  have hb : Pipeline.withArrays (cfgs 0).spec c (V0 m c) (fun w => (dats m 0 c).arrAt w (cfgs 0).N)
      (Proc.tc.devRef main_arg3) = m ((c.tc : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v32) = _
  after_results_simp
  rw [h16, h15, h6, h3, hb]
  unfold tailValue lookupIndex
  rfl

end Cert.KernelIdeal.Tail

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.RefEntry.lean ====
/-
  The reference's result at an entry, as a sum over the messages that land on the entry's row.

  The 700000 messages (600000 edges and 100000 self-loops) each carry 128 lanes.  Lane `l` of message `e` is
  `(δ(s) · δ(d)) · (x · W)(s, l)`, where `s`, `d` are the rows its source and destination indices select when a table is
  looked up (negative indices wrapped once by the table's height, then clamped into the table).  The accumulation puts
  message `e` on the row its destination index names as it stands — not wrapped, not clamped — and drops it when that is
  no row of the table.  So for a message that lands on row `r` the destination index is `r` itself, wrapping leaves it
  alone, and `d = r`.
-/
import proofs.«165905_j74036646248900_2_alg».proof.Proof.RefReadP
import proofs.«165905_j74036646248900_2_alg».proof.Proof.LibRowTake
import proofs.«165905_j74036646248900_2_alg».proof.Proof.LibPlainDot
import Idealize.ShloMosaic.PureOps.Ideal.Laws
import Idealize.ShloMosaic.Lib.ValueIdx

set_option maxRecDepth 16384

noncomputable section

namespace Cert.ReferenceIdeal.Entry

open Cert.ReferenceIdeal Cert.ReferenceIdeal.Gen Cert.ReferenceIdeal.ReadP Idealize.ShloMosaic
open Idealize.ShloMosaic.ValueIdx Idealize.ShloMosaic.RowTake

theorem rows_pos : 0 < 100000 := by decide

/-- The table row message `e`'s source index selects. -/
def srcRow (x1 : S2x600000.Idx → BitVec 32) (e : Fin 700000) : Fin 100000 :=
  clampRow 100000 rows_pos (val_main_v37 (F := Ideal) x1 (ix2 e (0 : Fin 1))).toInt
/-- The table row message `e`'s destination index selects. -/
def dstRow (x1 : S2x600000.Idx → BitVec 32) (e : Fin 700000) : Fin 100000 :=
  clampRow 100000 rows_pos (val_main_v28 (F := Ideal) x1 (ix2 e (0 : Fin 1))).toInt

/-- The message of an update index, and its lane. -/
abbrev msgOf (j : S700000x128.Idx) : Fin 700000 := ⟨(j 0).val, idx2_lt0 j⟩
abbrev laneOf (j : S700000x128.Idx) : Fin 128 := ⟨(j 1).val, idx2_lt1 j⟩
theorem eq_msg_lane (j : S700000x128.Idx) : j = ix2 (msgOf j) (laneOf j) := by
  funext a; match a with | ⟨0, _⟩ => rfl | ⟨1, _⟩ => rfl

/-- The update elements that land on entry `(r, c)`. -/
def hits (x1 : S2x600000.Idx → BitVec 32) (r : Fin 100000) (c : Fin 128) : Finset S700000x128.Idx :=
  Finset.univ.filter fun j => scatter_S100000x128_S700000x1_S700000x128_1_0_0_1.resultIdx? j (val_main_v42 (F := Ideal) x1) = some (ix2 r c)

/-- The weight of the message's source node, of its destination node, and the message's payload `(x · W)(s, l)`. -/
def srcWeight (x1 : S2x600000.Idx → BitVec 32) (j : S700000x128.Idx) : EReal :=
  val_main_v15 (F := Ideal) x1 (ix1 (srcRow x1 (msgOf j)))
def dstWeight (x1 : S2x600000.Idx → BitVec 32) (j : S700000x128.Idx) : EReal :=
  val_main_v15 (F := Ideal) x1 (ix1 (dstRow x1 (msgOf j)))
def payload (x0 : S100000x128.Idx → EReal) (x1 : S2x600000.Idx → BitVec 32) (x2 : S128x128.Idx → EReal)
    (j : S700000x128.Idx) : EReal :=
  ∑ k : Fin 128, x0 (ix2 (srcRow x1 (msgOf j)) k) * x2 (ix2 k (laneOf j))

/-- The two gathers of node weights and the gather of rows of `x · W` use one source index array. -/
theorem src_index_eq (x1 : S2x600000.Idx → BitVec 32) : val_main_v21 (F := Ideal) x1 = val_main_v37 (F := Ideal) x1 := rfl

/-- Lane `l` of message `e`. -/
theorem msg_apply (x0 : S100000x128.Idx → EReal) (x1 : S2x600000.Idx → BitVec 32) (x2 : S128x128.Idx → EReal)
    (e : Fin 700000) (l : Fin 128) :
    val_main_v40 (F := Ideal) x0 x1 x2 (ix2 e l)
      = (val_main_v15 (F := Ideal) x1 (ix1 (srcRow x1 e)) * val_main_v15 (F := Ideal) x1 (ix1 (dstRow x1 e)))
        * ∑ k : Fin 128, x0 (ix2 (srcRow x1 e) k) * x2 (ix2 k l) := by
  have h22 : val_main_v22 (F := Ideal) x1 (ix1 e) = val_main_v15 (F := Ideal) x1 (ix1 (srcRow x1 e)) := by
    unfold val_main_v22 Host.gather srcRow
    rw [src_index_eq]
    exact congrArg (val_main_v15 (F := Ideal) x1)
      (flat_operandIdx rows_pos gather_S100000_S700000x1_S700000_n_0_n_n_0_1_1.wf (val_main_v37 (F := Ideal) x1) e)
  have h29 : val_main_v29 (F := Ideal) x1 (ix1 e) = val_main_v15 (F := Ideal) x1 (ix1 (dstRow x1 e)) := by
    unfold val_main_v29 Host.gather dstRow
    exact congrArg (val_main_v15 (F := Ideal) x1)
      (flat_operandIdx rows_pos gather_S100000_S700000x1_S700000_n_0_n_n_0_1_1.wf (val_main_v28 (F := Ideal) x1) e)
  have h38 : val_main_v38 (F := Ideal) x0 x1 x2 (ix2 e l) = val_main_v7 (F := Ideal) x0 x2 (ix2 (srcRow x1 e) l) := by
    unfold val_main_v38 Host.gather srcRow
    exact congrArg (val_main_v7 (F := Ideal) x0 x2)
      (row_operandIdx rows_pos gather_S100000x128_S700000x1_S700000x128_1_0_n_n_0_1_1128.wf (val_main_v37 (F := Ideal) x1) e l)
  have h7 : val_main_v7 (F := Ideal) x0 x2 (ix2 (srcRow x1 e) l)
      = ∑ k : Fin 128, x0 (ix2 (srcRow x1 e) k) * x2 (ix2 k l) :=
    PlainDot.dotGeneral_apply dot_S100000x128_S128x128_S100000x128_1_0_0_1_n_n none rfl rfl lhs_main_v7_0 lhs_main_v7_1 rhs_main_v7_0 rhs_main_v7_1 x0 x2 _ l
  rw [val_main_v40_apply, val_main_v39_apply, val_main_v31_apply, val_main_v30_apply]
  have hi : idx_main_v31 (idx_main_v39 (ix2 e l)) = ix1 e := by
    funext a; match a with | ⟨0, _⟩ => rfl
  rw [hi, h22, h29, h38, h7]
  rfl

/-- An accumulating scatter on the extended reals, read at an index: the operand's element plus the sum of the update
    elements that land on it (whatever the shapes are). -/
theorem scatterAdd_apply {s si su : Shape} (d : ScatterDims s si su) {w : Nat} (x : FVec Ideal s .f32) (idx : IVec si w)
    (upd : FVec Ideal su .f32) (i : s.Idx) :
    Host.scatterAdd (F := Ideal) (φ := .f32) d x idx upd i
      = x i + ∑ j ∈ Finset.univ.filter (fun j => d.resultIdx? j idx = some i), upd j := rfl

/-- THE REFERENCE'S RESULT at entry `(r, c)`. -/
theorem result_apply (x0 : S100000x128.Idx → EReal) (x1 : S2x600000.Idx → BitVec 32) (x2 : S128x128.Idx → EReal)
    (x3 : S128.Idx → EReal) (r : Fin 100000) (c : Fin 128) :
    val_main_v46 (F := Ideal) x0 x1 x2 x3 (ix2 r c)
      = (0 + ∑ j ∈ hits x1 r c, (srcWeight x1 j * dstWeight x1 j) * payload x0 x1 x2 j) + x3 (ix1 c) := by
  rw [val_main_v46_apply, val_main_v45_apply, val_main_v44_apply]
  have hb : idx_main_v44 (idx_main_v45 (ix2 r c)) = ix1 c := by
    funext a; match a with | ⟨0, _⟩ => rfl
  rw [hb]
  show val_main_v43 (F := Ideal) x0 x1 x2 (ix2 r c) + x3 (ix1 c) = _
  refine congrArg (· + x3 (ix1 c)) ?_
  unfold val_main_v43
  rw [scatterAdd_apply, val_main_v41_apply, val_main_cst_8_apply, Ideal.ofBits_def, Ideal.ofBits_zero_f32]
  refine congrArg (0 + ·) (Finset.sum_congr rfl fun j _ => ?_)
  exact (congrArg (val_main_v40 (F := Ideal) x0 x1 x2) (eq_msg_lane j)).trans (msg_apply x0 x1 x2 _ _)

/-- A nonnegative index is not wrapped. -/
theorem wrap_of_nonneg (d n : BitVec 32) (h : 0 ≤ d.toInt) :
    Scalar.select (IntOp.cmpi .slt d 0#32) (IntOp.addi d n) d = d := by
  have hs : IntOp.cmpi .slt d 0#32 = 0#1 := by
    have : d.slt 0#32 = false := by
      rw [BitVec.slt]
      simp only [BitVec.toInt_zero, decide_eq_false_iff_not, not_lt]
      exact h
    show BitVec.ofBool (d.slt 0#32) = 0#1
    rw [this]; rfl
  rw [hs]
  show (if (0#1 : BitVec 1) = 1 then _ else _) = _
  rw [if_neg (by decide)]

/-- A message that lands on row `r` has destination row `r`. -/
theorem dstRow_of_hit (x1 : S2x600000.Idx → BitVec 32) (r : Fin 100000) (c : Fin 128) (j : S700000x128.Idx)
    (hj : j ∈ hits x1 r c) : dstRow x1 (msgOf j) = r := by
  have hmem : scatter_S100000x128_S700000x1_S700000x128_1_0_0_1.resultIdx? (ix2 (msgOf j) (laneOf j)) (val_main_v42 (F := Ideal) x1) = some (ix2 r c) := by
    have := (Finset.mem_filter.mp hj).2
    rw [eq_msg_lane j] at this
    exact this
  have h1 : (val_main_v42 (F := Ideal) x1 (ix2 (msgOf j) (0 : Fin 1))).toInt = (r.val : Int) :=
    rowScatter_row_of_some scatter_S100000x128_S700000x1_S700000x128_1_0_0_1.wf (val_main_v42 (F := Ideal) x1) (msgOf j) (laneOf j) (ix2 r c) hmem
  rw [val_main_v42_apply] at h1
  have hi42 : idx_main_v42 (ix2 (msgOf j) (0 : Fin 1)) = ix1 (msgOf j) := by
    funext a; match a with | ⟨0, _⟩ => rfl
  rw [hi42] at h1
  unfold dstRow
  refine clampRow_of_eq rows_pos _ r ?_
  rw [val_main_v28_apply, val_main_v27_apply, val_main_v24_apply, val_main_v23_apply, val_main_c_4_apply]
  have hi28 : idx_main_v28 (ix2 (msgOf j) (0 : Fin 1)) = ix1 (msgOf j) := by
    funext a; match a with | ⟨0, _⟩ => rfl
  rw [hi28, val_main_v26_apply, wrap_of_nonneg _ _ (by omega)]
  exact h1

end Cert.ReferenceIdeal.Entry

end
-- ==== Proof.LibDegreeWeight.lean ====
/-
  The two facts about extended reals that join the two arrangements of a degree-normalised neighbourhood sum.

  With `δ = where(deg > 0, deg^(-1/2), 0)` the weight of a node, one program scales every message by the product
  `δ(src) · δ(dst)` before summing the messages of a destination, the other scales messages by `δ(src)` only and
  multiplies the destination's sum by `δ(dst)` afterwards.  Multiplication distributes over a sum of extended reals
  when the factor is nonnegative and finite — whatever the summands are, infinities of both signs included — and the
  weight `δ` is nonnegative and finite for every extended real `deg`.
-/
import Idealize.ShloMosaic.PureOps.Ideal
import Idealize.ShloMosaic.PureOps.Ideal.Laws

noncomputable section

namespace Idealize.ShloMosaic.DegreeWeight

open Idealize.ShloMosaic

/-- The weight `where(x > 0, x^(-1/2), 0)` is nonnegative and finite, for every extended real `x`: at `⊥` and at a
    real `x ≤ 0` it is `0`, at `⊤` it is `⊤^(-1/2) = 0`, at a real `x > 0` it is the real `(√x)⁻¹`. -/
theorem weight_nonneg_ne_top (x : EReal) :
    0 ≤ Scalar.select (Ideal.cmp .ogt x 0) (Ideal.rsqrt x) 0
      ∧ Scalar.select (Ideal.cmp .ogt x 0) (Ideal.rsqrt x) 0 ≠ ⊤ := by
  unfold Scalar.select Ideal.cmp
  induction x using EReal.rec with
  | bot => simp
  | top => simp [Ideal.rsqrt_top]
  | coe r =>
    by_cases hr : 0 < r
    · have h1 : ((0 : EReal) < (r : EReal)) := by exact_mod_cast hr
      have h2 : ¬ r < 0 := not_lt.mpr hr.le
      have h3 : r ≠ 0 := hr.ne'
      simp only [h1, decide_true, BitVec.ofBool_true, if_true, Ideal.rsqrt_coe, h2, h3, if_false]
      refine ⟨?_, EReal.coe_ne_top _⟩
      exact_mod_cast inv_nonneg.mpr (Real.sqrt_nonneg r)
    · have h1 : ¬ ((0 : EReal) < (r : EReal)) := by exact_mod_cast hr
      simp [h1]

/-- A nonnegative finite factor distributes over a finite sum of extended reals. -/
theorem mul_sum {ι : Type*} (s : Finset ι) (a : EReal) (h0 : 0 ≤ a) (ht : a ≠ ⊤) (f : ι → EReal) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- Scaling a destination's sum of source-weighted messages by the destination's weight `a`, and adding the bias,
    is summing the messages weighted by the product of the two weights: `v j` is message `j`'s payload, `w j` its
    source's weight and `wd j` its destination's weight, which is `a` for every message of this destination. -/
theorem scaled_sum_eq {ι : Type*} (s : Finset ι) (a : EReal) (h0 : 0 ≤ a) (ht : a ≠ ⊤) (v w wd : ι → EReal)
    (hwd : ∀ j ∈ s, wd j = a) (b : EReal) :
    a * (0 + ∑ j ∈ s, v j * w j) + b = (0 + ∑ j ∈ s, (w j * wd j) * v j) + b := by
  rw [zero_add, zero_add, mul_sum s a h0 ht]
  congr 1
  refine Finset.sum_congr rfl fun j hj => ?_
  rw [hwd j hj, mul_comm (w j) a, mul_assoc, mul_comm (w j) (v j)]

end Idealize.ShloMosaic.DegreeWeight

end
-- ==== Proof.Bridge.lean ====
/-
  The two programs compute one function.

  At entry `(r, c)` the kernel program's result is `δ(r) · Σ_j (x · W)(s_j, l_j) · δ(s_j) + b(c)` and the reference's is
  `Σ_j (δ(s_j) · δ(d_j)) · (x · W)(s_j, l_j) + b(c)`, both sums over the update elements `j` that land on `(r, c)`,
  for which `d_j = r`.  The weight `δ(r)` is nonnegative and finite, so it distributes over the sum whatever the
  summands are; commutativity and associativity of the product do the rest.
-/
import proofs.«165905_j74036646248900_2_alg».proof.Proof.KernelTail
import proofs.«165905_j74036646248900_2_alg».proof.Proof.RefEntry
import proofs.«165905_j74036646248900_2_alg».proof.Proof.LibDegreeWeight
import proofs.«165905_j74036646248900_2_alg».proof.Proof.LibKeepdims
import proofs.«165905_j74036646248900_2_alg».proof.Proof.LibRowTake

set_option maxRecDepth 16384

noncomputable section

namespace Cert.Bridge

open Idealize.ShloMosaic Idealize.ShloMosaic.ValueIdx Idealize.ShloMosaic.RowTake
open Cert.ReferenceIdeal.Entry Cert.ReferenceIdeal.ReadP

/-- A node's weight is `where(deg > 0, deg^(-1/2), 0)` of the node's degree. -/
theorem weight_eq (x1 : Cert.ReferenceIdeal.S2x600000.Idx → BitVec 32) (i : Cert.ReferenceIdeal.S100000.Idx) :
    val_main_v15 (F := Ideal) x1 i
      = Scalar.select (Ideal.cmp .ogt (val_main_v11 (F := Ideal) x1 i) 0) (Ideal.rsqrt (val_main_v11 (F := Ideal) x1 i)) 0 := by
  rw [val_main_v15_apply, val_main_v13_apply, val_main_v14_apply, val_main_v12_apply, val_main_cst_1_apply,
    val_main_call0_v1_apply, val_main_call0_v0_apply, val_main_cst_2_apply]
  generalize val_main_v11 (F := Ideal) x1 i = y
  rw [Ideal.ofBits_def, Ideal.ofBits_zero_f32]
  rfl

/-- A node's weight is nonnegative and finite. -/
theorem weight_nonneg_ne_top (x1 : Cert.ReferenceIdeal.S2x600000.Idx → BitVec 32) (i : Cert.ReferenceIdeal.S100000.Idx) :
    0 ≤ val_main_v15 (F := Ideal) x1 i ∧ val_main_v15 (F := Ideal) x1 i ≠ ⊤ := by
  rw [weight_eq]
  exact DegreeWeight.weight_nonneg_ne_top _

/-- The edge lists the kernel program builds are the reference's: the same operations on the edge array. -/
theorem srcList_eq (x1 : Cert.KernelIdeal.S2x600000.Idx → BitVec 32) : Cert.KernelIdeal.Tail.srcList x1 = val_main_v3 (F := Ideal) x1 := by
  unfold Cert.KernelIdeal.Tail.srcList val_main_v3 val_main_v2 val_main_v1 val_main_v0
  rfl
theorem dstList_eq (x1 : Cert.KernelIdeal.S2x600000.Idx → BitVec 32) : Cert.KernelIdeal.Tail.dstList x1 = val_main_v6 (F := Ideal) x1 := by
  unfold Cert.KernelIdeal.Tail.dstList val_main_v6 val_main_v5 val_main_v4 val_main_v0
  rfl

/-- The weights the kernel program computes from the destination list are the reference's node weights: the same
    operations, one after the other. -/
theorem weightOf_eq {F : FTy → Type} [FloatOps F] (x1 : Cert.KernelIdeal.S2x600000.Idx → BitVec 32) :
    Cert.KernelIdeal.Tail.weightOf (F := F) (val_main_v6 (F := F) x1) = val_main_v15 (F := F) x1 := by
  unfold Cert.KernelIdeal.Tail.weightOf Cert.KernelIdeal.Tail.degree val_main_v15 val_main_v13 val_main_v14 val_main_v11 val_main_v12 val_main_v9
    val_main_v10 val_main_v8 val_main_call0_v1 val_main_call0_v0 val_main_cst val_main_cst_0 val_main_cst_1 val_main_cst_2
  rw [show Cert.KernelIdeal.scatter_S100000_S700000x1_S700000_n_0_0_1 = Cert.ReferenceIdeal.scatter_S100000_S700000x1_S700000_n_0_0_1 from rfl]

/-- The weight column at row `r` is node `r`'s weight. -/
theorem weightColumn_apply (x1 : Cert.KernelIdeal.S2x600000.Idx → BitVec 32) (r : Fin 100000) :
    Cert.KernelIdeal.Tail.weightColumn (F := Ideal) x1 (ix2 r (0 : Fin 1)) = val_main_v15 (F := Ideal) x1 (ix1 r) := by
  unfold Cert.KernelIdeal.Tail.weightColumn
  rw [dstList_eq, weightOf_eq]
  exact Keepdims.shapeCast_a_a1_apply _ _ r 0

/-! The host operations after the grid, leaf by leaf, are the reference's stages. -/

theorem zeros_eq : broadcastInDim Cert.KernelIdeal.S100000x128 ![] Cert.KernelIdeal.Gen.bcast_S_S100000x128
    (constant (F := Ideal) Cert.KernelIdeal.S_ .f32 0x00000000#32) = val_main_v41 (F := Ideal) := by
  unfold val_main_v41 val_main_cst_8; rfl

theorem dstColumn_eq (x1 : Cert.KernelIdeal.S2x600000.Idx → BitVec 32) :
    broadcastInDim Cert.KernelIdeal.S700000x1 ![0] Cert.KernelIdeal.Gen.bcast_S700000_S700000x1_0 (Cert.KernelIdeal.Tail.dstList x1)
      = val_main_v42 (F := Ideal) x1 := by
  rw [dstList_eq]; unfold val_main_v42; rfl

theorem lookupIndex_eq (x1 : Cert.KernelIdeal.S2x600000.Idx → BitVec 32) :
    Cert.KernelIdeal.Tail.lookupIndex (Cert.KernelIdeal.Tail.srcList x1) = val_main_v37 (F := Ideal) x1 := by
  rw [srcList_eq]
  unfold Cert.KernelIdeal.Tail.lookupIndex val_main_v37 val_main_v36 val_main_v33 val_main_v35 val_main_v32 val_main_v34 val_main_c_6
    val_main_c_7
  rfl

theorem bias_eq (x3 : Cert.KernelIdeal.S128.Idx → EReal) :
    broadcastInDim Cert.KernelIdeal.S100000x128 ![0, 1] Cert.KernelIdeal.Gen.bcast_S1x128_S100000x128_0_1
        (broadcastInDim Cert.KernelIdeal.S1x128 ![1] Cert.KernelIdeal.Gen.bcast_S128_S1x128_1 x3) = val_main_v45 (F := Ideal) x3 := by
  unfold val_main_v45 val_main_v44; rfl

/-- Widening the 16-bit format is the identity on the extended reals. -/
theorem widen_eq {s : Shape} (v : FVec Ideal s .bf16) (h : FTy.bits .bf16 < FTy.bits .f32) :
    extf (F := Ideal) .f32 v h = v := rfl

/-- A column `[100000, 1]` broadcast over the 128 lanes reads, at `(r, c)`, the column at row `r`. -/
theorem column_apply (v : Cert.KernelIdeal.S100000x1.Idx → EReal) (r : Fin 100000) (c : Fin 128) :
    broadcastInDim Cert.KernelIdeal.S100000x128 ![0, 1] Cert.KernelIdeal.Gen.bcast_S100000x1_S100000x128_0_1 v (ix2 r c) = v (ix2 r (0 : Fin 1)) :=
  broadcastInDim_apply _ _ v (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])

/-- Rows of any table `Y` looked up at any index column: element `j` reads row `clamp (idx (message of j))`, lane of `j`. -/
theorem lookup_apply (Y : Cert.KernelIdeal.S100000x128.Idx → EReal) (idx : IVec Cert.KernelIdeal.S700000x1 32) (j : Cert.KernelIdeal.S700000x128.Idx) :
    Host.gather Cert.KernelIdeal.gather_S100000x128_S700000x1_S700000x128_1_0_n_n_0_1_1128 Y idx j
      = Y (ix2 (clampRow 100000 rows_pos (idx (ix2 (msgOf j) (0 : Fin 1))).toInt) (laneOf j)) :=
  (congrArg (Host.gather Cert.KernelIdeal.gather_S100000x128_S700000x1_S700000x128_1_0_n_n_0_1_1128 Y idx) (eq_msg_lane j)).trans
    (congrArg Y (row_operandIdx rows_pos Cert.KernelIdeal.gather_S100000x128_S700000x1_S700000x128_1_0_n_n_0_1_1128.wf idx (msgOf j) (laneOf j)))

/-- The scaled rows at an entry: a row of `x · W` times the row's weight. -/
theorem scaledRows_apply (x0 : Cert.KernelIdeal.S100000x128.Idx → EReal) (x1 : Cert.KernelIdeal.S2x600000.Idx → BitVec 32)
    (x2 : Cert.KernelIdeal.S128x128.Idx → EReal) (s : Fin 100000) (l : Fin 128) :
    Cert.KernelIdeal.Tail.scaledRows x0 x1 x2 (ix2 s l)
      = (∑ k : Fin 128, x0 (ix2 s k) * x2 (ix2 k l)) * val_main_v15 (F := Ideal) x1 (ix1 s) := by
  unfold Cert.KernelIdeal.Tail.scaledRows
  rw [Cert.KernelIdeal.Rows.scaledProduct_apply, weightColumn_apply]

/-- One gathered element: the message's payload times its source's weight. -/
theorem gathered_apply (x0 : Cert.KernelIdeal.S100000x128.Idx → EReal) (x1 : Cert.KernelIdeal.S2x600000.Idx → BitVec 32)
    (x2 : Cert.KernelIdeal.S128x128.Idx → EReal) (j : Cert.KernelIdeal.S700000x128.Idx) :
    Host.gather Cert.KernelIdeal.gather_S100000x128_S700000x1_S700000x128_1_0_n_n_0_1_1128 (Cert.KernelIdeal.Tail.scaledRows x0 x1 x2) (val_main_v37 (F := Ideal) x1) j
      = payload x0 x1 x2 j * srcWeight x1 j := by
  rw [lookup_apply]
  exact scaledRows_apply x0 x1 x2 (srcRow x1 (msgOf j)) (laneOf j)

/-- Any update rows accumulated into zeros at the destination column: entry `(r, c)` is the sum of the update
    elements that land on it. -/
theorem accumulate_apply (upd : Cert.ReferenceIdeal.S700000x128.Idx → EReal) (x1 : Cert.ReferenceIdeal.S2x600000.Idx → BitVec 32)
    (r : Fin 100000) (c : Fin 128) :
    Host.scatterAdd (F := Ideal) (φ := .f32) Cert.ReferenceIdeal.scatter_S100000x128_S700000x1_S700000x128_1_0_0_1 (val_main_v41 (F := Ideal))
        (val_main_v42 (F := Ideal) x1) upd (ix2 r c) = 0 + ∑ j ∈ hits x1 r c, upd j := by
  rw [scatterAdd_apply, val_main_v41_apply, val_main_cst_8_apply, Ideal.ofBits_def, Ideal.ofBits_zero_f32]
  rfl

/-- THE KERNEL PROGRAM'S RESULT at entry `(r, c)`. -/
theorem tail_apply (x0 : Cert.KernelIdeal.S100000x128.Idx → EReal) (x1 : Cert.KernelIdeal.S2x600000.Idx → BitVec 32)
    (x2 : Cert.KernelIdeal.S128x128.Idx → EReal) (x3 : Cert.KernelIdeal.S128.Idx → EReal) (r : Fin 100000) (c : Fin 128) :
    Cert.KernelIdeal.Tail.tailValue x0 x1 x2 x3 (ix2 r c)
      = val_main_v15 (F := Ideal) x1 (ix1 r) * (0 + ∑ j ∈ hits x1 r c, payload x0 x1 x2 j * srcWeight x1 j)
        + x3 (ix1 c) := by
  unfold Cert.KernelIdeal.Tail.tailValue
  rw [addf_apply, mulf_apply, zeros_eq, dstColumn_eq, lookupIndex_eq, bias_eq, widen_eq]
  have hsd : Cert.KernelIdeal.scatter_S100000x128_S700000x1_S700000x128_1_0_0_1 = Cert.ReferenceIdeal.scatter_S100000x128_S700000x1_S700000x128_1_0_0_1 := rfl
  rw [hsd, column_apply, weightColumn_apply, val_main_v45_apply, val_main_v44_apply]
  have hb : idx_main_v44 (idx_main_v45 (ix2 r c)) = ix1 c := by
    funext a; match a with | ⟨0, _⟩ => rfl
  rw [hb, accumulate_apply]
  exact congrArg (fun z => val_main_v15 (F := Ideal) x1 (ix1 r) * (0 + z) + x3 (ix1 c))
    (Finset.sum_congr rfl fun j _ => gathered_apply x0 x1 x2 j)

/-- THE TWO RESULTS ARE ONE FUNCTION of the arguments. -/
theorem value_eq (x0 : Cert.KernelIdeal.S100000x128.Idx → EReal) (x1 : Cert.KernelIdeal.S2x600000.Idx → BitVec 32)
    (x2 : Cert.KernelIdeal.S128x128.Idx → EReal) (x3 : Cert.KernelIdeal.S128.Idx → EReal) :
    Cert.KernelIdeal.Tail.tailValue x0 x1 x2 x3 = val_main_v46 (F := Ideal) x0 x1 x2 x3 := by
  funext i
  obtain ⟨r, c, rfl⟩ : ∃ (r : Fin 100000) (c : Fin 128), i = ix2 r c := ⟨i 0, i 1, eq_ix2 i⟩
  rw [tail_apply, result_apply]
  obtain ⟨h0, ht⟩ := weight_nonneg_ne_top x1 (ix1 r)
  exact DegreeWeight.scaled_sum_eq (hits x1 r c) _ h0 ht (payload x0 x1 x2) (srcWeight x1) (dstWeight x1)
    (fun j hj => by unfold dstWeight; rw [dstRow_of_hit x1 r c j hj]) (x3 (ix1 c))

end Cert.Bridge

end
-- ==== Proof.lean ====
/-
  A graph-convolution layer `out = D^(-1/2) (A + I) D^(-1/2) (x · W) + b` in two arrangements, equal on the extended reals.

  Both programs build the edge lists `src`, `dst` (600000 given edges followed by one self-loop per node), the degrees
  `deg` of the destinations and the node weights `δ = where(deg > 0, deg^(-1/2), 0)` by the same host operations.

  * The reference forms `x · W` with one host product, weights message `e` by `δ(src e) · δ(dst e)`, and adds the
    weighted rows `(x · W)(src e, ·)` up per destination; then it adds the bias.
  * The kernel program forms `Y(r, ·) = (x · W)(r, ·) · δ(r)` on a grid of 25 points of 4000 rows each (the matrix
    unit into a zero accumulator, the row scaled by a `[4000, 1]` block of the weight column; the narrowings to 16 bits
    are the identity on the extended reals), adds the rows `Y(src e, ·)` up per destination on the host, scales
    destination `d`'s sum by `δ(d)`, and adds the bias.

  A message is added to the row its destination index names as it stands, and is dropped when that is no row; when it
  is a row, the table lookups `δ(dst e)` read that same row.  So at every entry the two results differ by moving the
  factor `δ(d)` across the sum over the messages of `d` — valid for every extended-real summand because `δ(d)` is
  nonnegative and finite whatever the degree is — and by reordering products.  The precondition is never opened.

  The modules: `BlockValue` (a grid point's store at an entry), `RowsArray` (from the blocks to the whole array `Y`),
  `KernelTail` (the kernel program's result buffer as one term of the arguments), `RefEntry` (the reference's result
  at an entry), `Bridge` (the two are one function); `LibRowTake`, `LibDegreeWeight`, `LibKeepdims`, `LibPlainDot`
  are general lemmas about row lookups and accumulations, the weight, keep-dims layouts and plain matrix products.
-/
import proofs.«165905_j74036646248900_2_alg».proof.Defs
import proofs.«165905_j74036646248900_2_alg».proof.Proof.Gen.Kernel
import proofs.«165905_j74036646248900_2_alg».proof.Proof.Gen.Kernel.Frame
import proofs.«165905_j74036646248900_2_alg».proof.Proof.Gen.KernelIdeal
import proofs.«165905_j74036646248900_2_alg».proof.Proof.Gen.KernelIdeal.Frame
import proofs.«165905_j74036646248900_2_alg».proof.Proof.Gen.ReferenceIdeal
import proofs.«165905_j74036646248900_2_alg».proof.Proof.Gen.Pre_finite_inputs
import proofs.«165905_j74036646248900_2_alg».proof.Proof.RefRunP
import proofs.«165905_j74036646248900_2_alg».proof.Proof.RefReadP
import proofs.«165905_j74036646248900_2_alg».proof.Proof.KernelTail
import proofs.«165905_j74036646248900_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

section
open Cert.KernelIdeal Cert.KernelIdeal.Gen

/-- The kernel program's run: the result buffer at `tailValue` of the arguments, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32)
          = Tail.tailValue (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v32 (Pipeline.mem_restRefs_of main_v32 (by decide) (by decide))).trans (Tail.result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end

/-- From memories that agree on the arguments both programs end with the same result: the kernel program's at
    `tailValue` of its arguments, the reference's at its last stage of arguments that agree, and the two are one
    function. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2]
  exact (Cert.Bridge.value_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
